-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩

class Facts : Prop where
  bcast_S_S500000x81 : S_.BroadcastsInDim S500000x81 (![] : Fin 0 → Fin S500000x81.rank)
  reducesTo_S500000x81_S_d0_1 : S500000x81.ReducesTo [0, 1] S_
  h_S_ : 0 < S_.numel
  bcast_S_S81x128 : S_.BroadcastsInDim S81x128 (![] : Fin 0 → Fin S81x128.rank)
  reducesTo_S81x128_S_d0_1 : S81x128.ReducesTo [0, 1] S_

variable [Facts]

def fn {F : FTy → Type} [FloatOps F] (main_arg0 : FVec F S500000x81 .f32) (main_arg1 : IVec S500000x2 32) (main_arg2 : FVec F S81x128 .f32) (main_arg3 : FVec F S81x128 .f32) : IVec S_ 1 :=
  let main_v0 : FVec F S500000x81 .f32 := Host.absf main_arg0
  let main_cst : FVec F S_ .f32 := constant S_ .f32 0x7F800000#32
  let main_v1 : FVec F S500000x81 .f32 := broadcastInDim S500000x81 ![] bcast_S_S500000x81 main_cst
  let main_v2 : IVec S500000x81 1 := cmpf .olt main_v0 main_v1
  let main_c : IVec S_ 1 := constantI S_ 1 1#1
  let main_v3 : IVec S_ 1 := (fun x v => Host.reduce IntOp.andi x v reducesTo_S500000x81_S_d0_1 h_S_) main_v2 main_c
  let main_v4 : FVec F S81x128 .f32 := Host.absf main_arg2
  let main_cst_0 : FVec F S_ .f32 := constant S_ .f32 0x7F800000#32
  let main_v5 : FVec F S81x128 .f32 := broadcastInDim S81x128 ![] bcast_S_S81x128 main_cst_0
  let main_v6 : IVec S81x128 1 := cmpf .olt main_v4 main_v5
  let main_c_1 : IVec S_ 1 := constantI S_ 1 1#1
  let main_v7 : IVec S_ 1 := (fun x v => Host.reduce IntOp.andi x v reducesTo_S81x128_S_d0_1 h_S_) main_v6 main_c_1
  let main_v8 : IVec S_ 1 := andi main_v3 main_v7
  let main_v9 : FVec F S81x128 .f32 := Host.absf main_arg3
  let main_cst_2 : FVec F S_ .f32 := constant S_ .f32 0x7F800000#32
  let main_v10 : FVec F S81x128 .f32 := broadcastInDim S81x128 ![] bcast_S_S81x128 main_cst_2
  let main_v11 : IVec S81x128 1 := cmpf .olt main_v9 main_v10
  let main_c_3 : IVec S_ 1 := constantI S_ 1 1#1
  let main_v12 : IVec S_ 1 := (fun x v => Host.reduce IntOp.andi x v reducesTo_S81x128_S_d0_1 h_S_) main_v11 main_c_3
  let main_v13 : IVec S_ 1 := andi main_v8 main_v12
  main_v13
-- ==== Kernel.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩
abbrev S500000x2x1 : Shape := ⟨3, ![500000, 2, 1]⟩
abbrev S500000x2x81 : Shape := ⟨3, ![500000, 2, 81]⟩
abbrev S500000x128 : Shape := ⟨2, ![500000, 128]⟩
abbrev S2000x81 : Shape := ⟨2, ![2000, 81]⟩
abbrev S2000x2x81 : Shape := ⟨3, ![2000, 2, 81]⟩
abbrev S2000x2 : Shape := ⟨2, ![2000, 2]⟩
abbrev S2000x128 : Shape := ⟨2, ![2000, 128]⟩
abbrev S2000x3 : Shape := ⟨2, ![2000, 3]⟩
abbrev S2000x78 : Shape := ⟨2, ![2000, 78]⟩
abbrev S2000x2x3 : Shape := ⟨3, ![2000, 2, 3]⟩
abbrev S2000x2x78 : Shape := ⟨3, ![2000, 2, 78]⟩
abbrev S2000x1x3 : Shape := ⟨3, ![2000, 1, 3]⟩
abbrev S2000x1x78 : Shape := ⟨3, ![2000, 1, 78]⟩
abbrev S2000x2x1 : Shape := ⟨3, ![2000, 2, 1]⟩
abbrev S4000x81 : Shape := ⟨2, ![4000, 81]⟩
abbrev S4000x128 : Shape := ⟨2, ![4000, 128]⟩
abbrev S2000x2x128 : Shape := ⟨3, ![2000, 2, 128]⟩

abbrev nBuf : Space → Nat
  | .hbm => 30
  | .vmem => 10
  | .smem => 0
  | _ => 0

abbrev bufTy : (tb : Table) → Fin (tcTables nBuf tb) → BufTy
  | .hbm, ⟨0, _⟩ => ⟨S500000x81, .f32⟩
  | .hbm, ⟨1, _⟩ => ⟨S500000x2, .i32⟩
  | .hbm, ⟨2, _⟩ => ⟨S81x128, .f32⟩
  | .hbm, ⟨3, _⟩ => ⟨S81x128, .f32⟩
  | .hbm, ⟨4, _⟩ => ⟨S_, .i32⟩
  | .hbm, ⟨5, _⟩ => ⟨S500000x2, .i32⟩
  | .hbm, ⟨6, _⟩ => ⟨S500000x2, .i1⟩
  | .hbm, ⟨7, _⟩ => ⟨S_, .i32⟩
  | .hbm, ⟨8, _⟩ => ⟨S500000x2, .i32⟩
  | .hbm, ⟨9, _⟩ => ⟨S500000x2, .i1⟩
  | .hbm, ⟨10, _⟩ => ⟨S500000x2, .i1⟩
  | .hbm, ⟨11, _⟩ => ⟨S500000x2, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S500000x2, .i32⟩
  | .hbm, ⟨16, _⟩ => ⟨S500000x2, .i32⟩
  | .hbm, ⟨17, _⟩ => ⟨S_, .i32⟩
  | .hbm, ⟨18, _⟩ => ⟨S500000x2, .i32⟩
  | .hbm, ⟨19, _⟩ => ⟨S500000x2, .i32⟩
  | .hbm, ⟨20, _⟩ => ⟨S_, .i32⟩
  | .hbm, ⟨21, _⟩ => ⟨S500000x2, .i32⟩
  | .hbm, ⟨22, _⟩ => ⟨S500000x2, .i1⟩
  | .hbm, ⟨23, _⟩ => ⟨S_, .i32⟩
  | .hbm, ⟨24, _⟩ => ⟨S500000x2, .i32⟩
  | .hbm, ⟨25, _⟩ => ⟨S500000x2, .i32⟩
  | .hbm, ⟨26, _⟩ => ⟨S500000x2, .i32⟩
  | .hbm, ⟨27, _⟩ => ⟨S500000x2x1, .i32⟩
  | .hbm, ⟨28, _⟩ => ⟨S500000x2x81, .f32⟩
  | .hbm, ⟨29, _⟩ => ⟨S500000x128, .f32⟩
  | .local _ .vmem, ⟨0, _⟩ => ⟨S2000x81, .f32⟩
  | .local _ .vmem, ⟨1, _⟩ => ⟨S2000x81, .f32⟩
  | .local _ .vmem, ⟨2, _⟩ => ⟨S2000x2x81, .f32⟩
  | .local _ .vmem, ⟨3, _⟩ => ⟨S2000x2x81, .f32⟩
  | .local _ .vmem, ⟨4, _⟩ => ⟨S2000x2, .f32⟩
  | .local _ .vmem, ⟨5, _⟩ => ⟨S2000x2, .f32⟩
  | .local _ .vmem, ⟨6, _⟩ => ⟨S81x128, .f32⟩
  | .local _ .vmem, ⟨7, _⟩ => ⟨S81x128, .f32⟩
  | .local _ .vmem, ⟨8, _⟩ => ⟨S2000x128, .f32⟩
  | .local _ .vmem, ⟨9, _⟩ => ⟨S2000x128, .f32⟩
  | _, _ => ⟨S500000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_c_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_c_3 : Ref sig .tc := ⟨.hbm, 20, rfl⟩
abbrev main_v7 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S81x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S81x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  inb_S2000x81_S2000x81_0_0 : ∀ a, (![0, 0] : Fin 2 → Nat) a + S2000x81.size a ≤ S2000x81.size a
  h_S2000x81 : 0 < S2000x81.numel
  inb_S2000x2x81_S2000x2x81_0_0_0 : ∀ a, (![0, 0, 0] : Fin 3 → Nat) a + S2000x2x81.size a ≤ S2000x2x81.size a
  h_S2000x2x81 : 0 < S2000x2x81.numel
  shapeCasts_S2000x2x81_S2000x2x81 : S2000x2x81.ShapeCasts S2000x2x81
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x81_o0_0_S2000x3 : S2000x81.Slices ![0, 0] S2000x3
  slices_S2000x81_o0_3_S2000x78 : S2000x81.Slices ![0, 3] S2000x78
  slices_S2000x2x81_o0_0_0_S2000x2x3 : S2000x2x81.Slices ![0, 0, 0] S2000x2x3
  slices_S2000x2x81_o0_0_3_S2000x2x78 : S2000x2x81.Slices ![0, 0, 3] S2000x2x78
  shapeCasts_S2000x3_S2000x1x3 : S2000x3.ShapeCasts S2000x1x3
  broadcasts_S2000x1x3_S2000x2x3 : S2000x1x3.Broadcasts S2000x2x3
  reduces_S2000x2x3_S2000x2 : S2000x2x3.Reduces [2] S2000x2
  shapeCasts_S2000x78_S2000x1x78 : S2000x78.ShapeCasts S2000x1x78
  broadcasts_S2000x1x78_S2000x2x78 : S2000x1x78.Broadcasts S2000x2x78
  concatenates_S2000x2x3_S2000x2x78_S2000x2x81_d2 : Shape.Concatenates [S2000x2x3, S2000x2x78] S2000x2x81 2
  shapeCasts_S2000x2_S2000x2x1 : S2000x2.ShapeCasts S2000x2x1
  broadcasts_S2000x2x1_S2000x2x81 : S2000x2x1.Broadcasts S2000x2x81
  shapeCasts_S2000x2x81_S4000x81 : S2000x2x81.ShapeCasts S4000x81
  bitsLt_bf16_f32 : FTy.bits .bf16 < FTy.bits .f32
  inb_S81x128_S81x128_0_0 : ∀ a, (![0, 0] : Fin 2 → Nat) a + S81x128.size a ≤ S81x128.size a
  h_S81x128 : 0 < S81x128.numel
  shapeCasts_S4000x128_S2000x2x128 : S4000x128.ShapeCasts S2000x2x128
  reduces_S2000x2x128_S2000x128 : S2000x2x128.Reduces [1] S2000x128
  inb_S2000x128_S2000x128_0_0 : ∀ a, (![0, 0] : Fin 2 → Nat) a + S2000x128.size a ≤ S2000x128.size a
  h_S2000x128 : 0 < S2000x128.numel
  gather_S500000x81_S500000x2x1_S500000x2x81_2_0_n_n_0_2_181_wf : GatherDims.WF S500000x81 S500000x2x1 S500000x2x81 [2] [0] [] [0] [] 2 ![1, 81]
  dot_S4000x81_S81x128_S4000x128_1_0_0_1_n_n_wf : DotDims.WF S4000x81 S81x128 S4000x128 [1] [0] [0] [1] [] []
  dot_S2000x81_S81x128_S2000x128_1_0_0_1_n_n_wf : DotDims.WF S2000x81 S81x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x81.size a ≤ S500000x81.size a
  hwx0_0 : ∀ i : grid0.Coords, EltTy.bits .f32 = 32 ∨ (Rect.block (s := S500000x81) S2000x81.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2x81.size a ≤ S500000x2x81.size a
  hwx0_1 : ∀ i : grid0.Coords, EltTy.bits .f32 = 32 ∨ (Rect.block (s := S500000x2x81) S2000x2x81.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S500000x2.size a
  hwx0_2 : ∀ i : grid0.Coords, EltTy.bits .f32 = 32 ∨ (Rect.block (s := S500000x2) S2000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S81x128.size a ≤ S81x128.size a
  hwx0_3 : ∀ i : grid0.Coords, EltTy.bits .f32 = 32 ∨ (Rect.block (s := S81x128) S81x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S81x128.size a ≤ S81x128.size a
  hwx0_4 : ∀ i : grid0.Coords, EltTy.bits .f32 = 32 ∨ (Rect.block (s := S81x128) S81x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S500000x128.size a
  hwx0_5 : ∀ i : grid0.Coords, EltTy.bits .f32 = 32 ∨ (Rect.block (s := S500000x128) S2000x128.size (cc0_transform_5 i) (hinb0_5 i)).WholeWords (EltTy.packing .f32)

variable [Facts₀]

def gather_S500000x81_S500000x2x1_S500000x2x81_2_0_n_n_0_2_181 : GatherDims S500000x81 S500000x2x1 S500000x2x81 where
  offsetDims := [2]
  collapsedSliceDims := [0]
  operandBatchingDims := []
  startIndicesBatchingDims := []
  startIndexMap := [0]
  indexVectorDim := 2
  sliceSizes := ![1, 81]
  wf := gather_S500000x81_S500000x2x1_S500000x2x81_2_0_n_n_0_2_181_wf
def dot_S4000x81_S81x128_S4000x128_1_0_0_1_n_n : DotDims S4000x81 S81x128 S4000x128 where
  lhsContracting := [1]
  rhsContracting := [0]
  lhsNonContracting := [0]
  rhsNonContracting := [1]
  lhsBatch := []
  rhsBatch := []
  wf := dot_S4000x81_S81x128_S4000x128_1_0_0_1_n_n_wf
def dot_S2000x81_S81x128_S2000x128_1_0_0_1_n_n : DotDims S2000x81 S81x128 S2000x128 where
  lhsContracting := [1]
  rhsContracting := [0]
  lhsNonContracting := [0]
  rhsNonContracting := [1]
  lhsBatch := []
  rhsBatch := []
  wf := dot_S2000x81_S81x128_S2000x128_1_0_0_1_n_n_wf

abbrev win0_0 : Pipeline.Window sig grid0 :=
  Pipeline.Window.ofSpec (Memref.whole main_arg0) S2000x81.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x2x81.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S81x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S81x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S500000x81 : Shape := ⟨2, ![500000, 81]⟩
abbrev S500000x2 : Shape := ⟨2, ![500000, 2]⟩
abbrev S81x128 : Shape := ⟨2, ![81, 128]⟩
abbrev S_ : Shape := ⟨0, ![]⟩
abbrev S500000x2x1 : Shape := ⟨3, ![500000, 2, 1]⟩
abbrev S500000x2x81 : Shape := ⟨3, ![500000, 2, 81]⟩
abbrev S500000x1x81 : Shape := ⟨3, ![500000, 1, 81]⟩
abbrev S500000x1x3 : Shape := ⟨3, ![500000, 1, 3]⟩
abbrev S500000x2x3 : Shape := ⟨3, ![500000, 2, 3]⟩
abbrev S500000x1x78 : Shape := ⟨3, ![500000, 1, 78]⟩
abbrev S500000x2x78 : Shape := ⟨3, ![500000, 2, 78]⟩
abbrev S500000x2x128 : Shape := ⟨3, ![500000, 2, 128]⟩
abbrev S500000x128 : Shape := ⟨2, ![500000, 128]⟩

abbrev nBuf : Space → Nat
  | .hbm => 71
  | .vmem => 0
  | .smem => 0
  | _ => 0

abbrev bufTy : (tb : Table) → Fin (tcTables nBuf tb) → BufTy
  | .hbm, ⟨0, _⟩ => ⟨S500000x81, .f32⟩
  | .hbm, ⟨1, _⟩ => ⟨S500000x2, .i32⟩
  | .hbm, ⟨2, _⟩ => ⟨S81x128, .f32⟩
  | .hbm, ⟨3, _⟩ => ⟨S81x128, .f32⟩
  | .hbm, ⟨4, _⟩ => ⟨S_, .i32⟩
  | .hbm, ⟨5, _⟩ => ⟨S500000x2, .i32⟩
  | .hbm, ⟨6, _⟩ => ⟨S500000x2, .i1⟩
  | .hbm, ⟨7, _⟩ => ⟨S_, .i32⟩
  | .hbm, ⟨8, _⟩ => ⟨S500000x2, .i32⟩
  | .hbm, ⟨9, _⟩ => ⟨S500000x2, .i1⟩
  | .hbm, ⟨10, _⟩ => ⟨S500000x2, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S500000x2, .i32⟩
  | .hbm, ⟨15, _⟩ => ⟨S500000x2, .i32⟩
  | .hbm, ⟨16, _⟩ => ⟨S_, .i32⟩
  | .hbm, ⟨17, _⟩ => ⟨S500000x2, .i32⟩
  | .hbm, ⟨18, _⟩ => ⟨S500000x2, .i32⟩
  | .hbm, ⟨19, _⟩ => ⟨S_, .i32⟩
  | .hbm, ⟨20, _⟩ => ⟨S500000x2, .i32⟩
  | .hbm, ⟨21, _⟩ => ⟨S500000x2, .i1⟩
  | .hbm, ⟨22, _⟩ => ⟨S_, .i32⟩
  | .hbm, ⟨23, _⟩ => ⟨S500000x2, .i32⟩
  | .hbm, ⟨24, _⟩ => ⟨S500000x2, .i32⟩
  | .hbm, ⟨25, _⟩ => ⟨S500000x2, .i32⟩
  | .hbm, ⟨26, _⟩ => ⟨S500000x2x1, .i32⟩
  | .hbm, ⟨27, _⟩ => ⟨S500000x2x81, .f32⟩
  | .hbm, ⟨28, _⟩ => ⟨S500000x1x81, .f32⟩
  | .hbm, ⟨29, _⟩ => ⟨S500000x1x3, .f32⟩
  | .hbm, ⟨30, _⟩ => ⟨S500000x2x3, .f32⟩
  | .hbm, ⟨31, _⟩ => ⟨S500000x2x3, .f32⟩
  | .hbm, ⟨32, _⟩ => ⟨S500000x2x3, .f32⟩
  | .hbm, ⟨33, _⟩ => ⟨S500000x2x3, .f32⟩
  | .hbm, ⟨34, _⟩ => ⟨S_, .f32⟩
  | .hbm, ⟨35, _⟩ => ⟨S500000x2, .f32⟩
  | .hbm, ⟨36, _⟩ => ⟨S500000x2, .f32⟩
  | .hbm, ⟨37, _⟩ => ⟨S500000x2x3, .f32⟩
  | .hbm, ⟨38, _⟩ => ⟨S500000x1x78, .f32⟩
  | .hbm, ⟨39, _⟩ => ⟨S500000x2x78, .f32⟩
  | .hbm, ⟨40, _⟩ => ⟨S500000x2x78, .f32⟩
  | .hbm, ⟨41, _⟩ => ⟨S500000x2x78, .f32⟩
  | .hbm, ⟨42, _⟩ => ⟨S500000x2x81, .f32⟩
  | .hbm, ⟨43, _⟩ => ⟨S_, .f32⟩
  | .hbm, ⟨44, _⟩ => ⟨S500000x2, .f32⟩
  | .hbm, ⟨45, _⟩ => ⟨S500000x2, .i1⟩
  | .hbm, ⟨46, _⟩ => ⟨S_, .f32⟩
  | .hbm, ⟨47, _⟩ => ⟨S500000x2, .f32⟩
  | .hbm, ⟨48, _⟩ => ⟨S500000x2, .f32⟩
  | .hbm, ⟨49, _⟩ => ⟨S500000x2, .f32⟩
  | .hbm, ⟨50, _⟩ => ⟨S_, .f32⟩
  | .hbm, ⟨51, _⟩ => ⟨S500000x2, .f32⟩
  | .hbm, ⟨52, _⟩ => ⟨S500000x2, .f32⟩
  | .hbm, ⟨53, _⟩ => ⟨S_, .f32⟩
  | .hbm, ⟨54, _⟩ => ⟨S_, .f32⟩
  | .hbm, ⟨55, _⟩ => ⟨S500000x2, .f32⟩
  | .hbm, ⟨56, _⟩ => ⟨S500000x2, .f32⟩
  | .hbm, ⟨57, _⟩ => ⟨S500000x2x1, .f32⟩
  | .hbm, ⟨58, _⟩ => ⟨S500000x2x81, .f32⟩
  | .hbm, ⟨59, _⟩ => ⟨S500000x2x81, .f32⟩
  | .hbm, ⟨60, _⟩ => ⟨S500000x2x128, .f32⟩
  | .hbm, ⟨61, _⟩ => ⟨S500000x2x1, .i1⟩
  | .hbm, ⟨62, _⟩ => ⟨S_, .f32⟩
  | .hbm, ⟨63, _⟩ => ⟨S_, .f32⟩
  | .hbm, ⟨64, _⟩ => ⟨S500000x2x128, .i1⟩
  | .hbm, ⟨65, _⟩ => ⟨S500000x2x128, .f32⟩
  | .hbm, ⟨66, _⟩ => ⟨S500000x2x128, .f32⟩
  | .hbm, ⟨67, _⟩ => ⟨S500000x128, .f32⟩
  | .hbm, ⟨68, _⟩ => ⟨S_, .f32⟩
  | .hbm, ⟨69, _⟩ => ⟨S500000x128, .f32⟩
  | .hbm, ⟨70, _⟩ => ⟨S500000x128, .f32⟩
  | _, _ => ⟨S500000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  bcast_S_S500000x2 : S_.BroadcastsInDim S500000x2 (![] : Fin 0 → Fin S500000x2.rank)
  bcast_S500000x2_S500000x2x1_0_1 : S500000x2.BroadcastsInDim S500000x2x1 (![0, 1] : Fin 2 → Fin S500000x2x1.rank)
  bcast_S500000x81_S500000x1x81_0_2 : S500000x81.BroadcastsInDim S500000x1x81 (![0, 2] : Fin 2 → Fin S500000x1x81.rank)
  slices_S500000x1x81_S500000x1x3_0_0_0 : S500000x1x81.Slices ![0, 0, 0] S500000x1x3
  slices_S500000x2x81_S500000x2x3_0_0_0 : S500000x2x81.Slices ![0, 0, 0] S500000x2x3
  bcast_S500000x1x3_S500000x2x3_0_1_2 : S500000x1x3.BroadcastsInDim S500000x2x3 (![0, 1, 2] : Fin 3 → Fin S500000x2x3.rank)
  reducesTo_S500000x2x3_S500000x2_d2 : S500000x2x3.ReducesTo [2] S500000x2
  h_S_ : 0 < S_.numel
  slices_S500000x1x81_S500000x1x78_0_0_3 : S500000x1x81.Slices ![0, 0, 3] S500000x1x78
  slices_S500000x2x81_S500000x2x78_0_0_3 : S500000x2x81.Slices ![0, 0, 3] S500000x2x78
  bcast_S500000x1x78_S500000x2x78_0_1_2 : S500000x1x78.BroadcastsInDim S500000x2x78 (![0, 1, 2] : Fin 3 → Fin S500000x2x78.rank)
  concatenates_S500000x2x3_S500000x2x78_S500000x2x81_d2 : Shape.Concatenates [S500000x2x3, S500000x2x78] S500000x2x81 2
  bcast_S500000x2x1_S500000x2x81_0_1_2 : S500000x2x1.BroadcastsInDim S500000x2x81 (![0, 1, 2] : Fin 3 → Fin S500000x2x81.rank)
  bcast_S500000x2x1_S500000x2x128_0_1_2 : S500000x2x1.BroadcastsInDim S500000x2x128 (![0, 1, 2] : Fin 3 → Fin S500000x2x128.rank)
  bcast_S_S500000x2x128 : S_.BroadcastsInDim S500000x2x128 (![] : Fin 0 → Fin S500000x2x128.rank)
  reducesTo_S500000x2x128_S500000x128_d1 : S500000x2x128.ReducesTo [1] S500000x128
  gather_S500000x81_S500000x2x1_S500000x2x81_2_0_n_n_0_2_181_wf : GatherDims.WF S500000x81 S500000x2x1 S500000x2x81 [2] [0] [] [0] [] 2 ![1, 81]
  dot_S500000x2x81_S81x128_S500000x2x128_2_0_01_1_n_n_wf : DotDims.WF S500000x2x81 S81x128 S500000x2x128 [2] [0] [0, 1] [1] [] []
  dot_S500000x81_S81x128_S500000x128_1_0_0_1_n_n_wf : DotDims.WF S500000x81 S81x128 S500000x128 [1] [0] [0] [1] [] []

variable [Facts₀]

def gather_S500000x81_S500000x2x1_S500000x2x81_2_0_n_n_0_2_181 : GatherDims S500000x81 S500000x2x1 S500000x2x81 where
  offsetDims := [2]
  collapsedSliceDims := [0]
  operandBatchingDims := []
  startIndicesBatchingDims := []
  startIndexMap := [0]
  indexVectorDim := 2
  sliceSizes := ![1, 81]
  wf := gather_S500000x81_S500000x2x1_S500000x2x81_2_0_n_n_0_2_181_wf
def dot_S500000x2x81_S81x128_S500000x2x128_2_0_01_1_n_n : DotDims S500000x2x81 S81x128 S500000x2x128 where
  lhsContracting := [2]
  rhsContracting := [0]
  lhsNonContracting := [0, 1]
  rhsNonContracting := [1]
  lhsBatch := []
  rhsBatch := []
  wf := dot_S500000x2x81_S81x128_S500000x2x128_2_0_01_1_n_n_wf
def dot_S500000x81_S81x128_S500000x128_1_0_0_1_n_n : DotDims S500000x81 S81x128 S500000x128 where
  lhsContracting := [1]
  rhsContracting := [0]
  lhsNonContracting := [0]
  rhsNonContracting := [1]
  lhsBatch := []
  rhsBatch := []
  wf := dot_S500000x81_S81x128_S500000x128_1_0_0_1_n_n_wf

class Facts : Prop extends Facts₀ where

variable [Facts]
-- ==== Proof.RowMath.lean ====
/-
  The layer's arithmetic for ONE atom (one row), over the extended reals.

  An atom has a feature row `a : Fin 81 → EReal`, two neighbour rows `b k`, and a validity bit per neighbour.
  Its first three features are coordinates. For a neighbour row `b`:
    * `sq3 a b` is the squared distance of the coordinates, `Σ_{j<3} (a j − b j)²`;
    * `scaleOf s` is `1 / max(√s, 0.001)²` where `√s > 0`, and `1` otherwise;
    * `comb a b f` is the neighbour's coordinate for `f < 3` and the sum `a f + b f` for the other features;
    * `msg a b f = comb a b f · scaleOf (sq3 a b)` is the neighbour's message.
  The atom's output at a column with weight columns `ws`, `wn` is
    `Σ_f a f · ws f  +  Σ_k [valid k] (Σ_f msg a (b k) f · wn f)`.
  Masking can be done in two ways: by selecting the neighbour's whole contribution or zero (`rowRef`), or by
  multiplying every message by the validity bit read as the number 0 or 1 before the contraction (`rowKer`).
  The two agree on every extended real, infinite ones included: `x · 1 = x`, and `x · 0 = 0`, `0 · y = 0`
  hold for all `x`, `y` in `EReal`, so a masked neighbour contributes a sum of zeros.
-/
import Idealize.ShloMosaic.PureOps.Ideal
import Idealize.ShloMosaic.PureOps.Ideal.Laws
import Idealize.ShloMosaic.Lib.ValueIdx

noncomputable section

open scoped BigOperators

namespace Cert.RuleConv

open Idealize.ShloMosaic Idealize.ShloMosaic.ValueIdx

/-- A coordinate feature's position among the 81 features. -/
def lo (j : Fin 3) : Fin 81 := ⟨j.val, by have := j.isLt; omega⟩

/-- The squared distance of the two rows' coordinates. -/
def sq3 (a b : Fin 81 → EReal) : EReal := ∑ j : Fin 3, (a (lo j) - b (lo j)) * (a (lo j) - b (lo j))

/-- The inverse-square scale of a squared distance `s`: `1 / max(√s, 0.001)²` where `√s > 0`, else `1`
    (the literals are the f32 words of `0`, `1` and of the float nearest `0.001`). -/
def scaleOf (s : EReal) : EReal :=
  Scalar.select (Ideal.cmp .ogt (Ideal.sqrt s) (Ideal.ofBits .f32 0x00000000#32))
    (Ideal.div (Ideal.ofBits .f32 0x3F800000#32)
      (max (Ideal.sqrt s) (Ideal.ofBits .f32 0x3A83126F#32) * max (Ideal.sqrt s) (Ideal.ofBits .f32 0x3A83126F#32)))
    (Ideal.ofBits .f32 0x3F800000#32)

/-- The combined feature: the neighbour's own coordinate, or the sum of the two rows' features. -/
def comb (a b : Fin 81 → EReal) (f : Fin 81) : EReal := if f.val < 3 then b f else a f + b f

/-- The neighbour's message. -/
def msg (a b : Fin 81 → EReal) (f : Fin 81) : EReal := comb a b f * scaleOf (sq3 a b)

/-- The atom's output, an invalid neighbour's contribution replaced by zero. -/
def rowRef (a : Fin 81 → EReal) (b : Fin 2 → Fin 81 → EReal) (vb : Fin 2 → BitVec 1) (ws wn : Fin 81 → EReal) : EReal :=
  (∑ f : Fin 81, a f * ws f) + ∑ k : Fin 2, Scalar.select (vb k) (∑ f : Fin 81, msg a (b k) f * wn f) 0

/-- The atom's output, every message multiplied by the neighbour's validity `v k` before the contraction. -/
def rowKer (a : Fin 81 → EReal) (b : Fin 2 → Fin 81 → EReal) (v : Fin 2 → EReal) (ws wn : Fin 81 → EReal) : EReal :=
  (∑ f : Fin 81, a f * ws f) + ∑ k : Fin 2, ∑ f : Fin 81, msg a (b k) f * v k * wn f

/-- Multiplying by the validity bit as a number is selecting by it. -/
theorem rowKer_eq_rowRef (a : Fin 81 → EReal) (b : Fin 2 → Fin 81 → EReal) (vb : Fin 2 → BitVec 1) (ws wn : Fin 81 → EReal) :
    rowKer a b (fun k => (((vb k).toNat : ℝ) : EReal)) ws wn = rowRef a b vb ws wn := by
  unfold rowKer rowRef
  refine congrArg (_ + ·) (Finset.sum_congr rfl fun k _ => ?_)
  show (∑ f : Fin 81, msg a (b k) f * (((vb k).toNat : ℝ) : EReal) * wn f) = Scalar.select (vb k) (∑ f : Fin 81, msg a (b k) f * wn f) 0
  rcases BitVec.eq_zero_or_eq_one (vb k) with h | h
  · rw [h, select_zero]
    refine Finset.sum_eq_zero fun f _ => ?_
    show msg a (b k) f * (((0#1 : BitVec 1).toNat : ℝ) : EReal) * wn f = 0
    rw [show (((0#1 : BitVec 1).toNat : ℝ) : EReal) = 0 from by simp, mul_zero, zero_mul]
  · rw [h, select_one]
    refine Finset.sum_congr rfl fun f _ => ?_
    show msg a (b k) f * (((1#1 : BitVec 1).toNat : ℝ) : EReal) * wn f = _
    rw [show (((1#1 : BitVec 1).toNat : ℝ) : EReal) = 1 from by simp, mul_one]

/-! ## The layer over the whole arrays -/

/-- The layer's output at atom `n`, column `c`: `A` the atoms' features, `NE` the gathered neighbour rows,
    `VB` the validity bits, `Ws` and `Wn` the two weight matrices. -/
def layerAt (A : (⟨2, ![500000, 81]⟩ : Shape).Idx → EReal) (NE : (⟨3, ![500000, 2, 81]⟩ : Shape).Idx → EReal)
    (VB : (⟨2, ![500000, 2]⟩ : Shape).Idx → BitVec 1) (Ws Wn : (⟨2, ![81, 128]⟩ : Shape).Idx → EReal)
    (n : Fin 500000) (c : Fin 128) : EReal :=
  rowRef (fun f => A (ix2 n f)) (fun k f => NE (ix3 n k f)) (fun k => VB (ix2 n k)) (fun f => Ws (ix2 f c)) (fun f => Wn (ix2 f c))

/-- The layer's output array. -/
def layer (A : (⟨2, ![500000, 81]⟩ : Shape).Idx → EReal) (NE : (⟨3, ![500000, 2, 81]⟩ : Shape).Idx → EReal)
    (VB : (⟨2, ![500000, 2]⟩ : Shape).Idx → BitVec 1) (Ws Wn : (⟨2, ![81, 128]⟩ : Shape).Idx → EReal) :
    (⟨2, ![500000, 128]⟩ : Shape).Idx → EReal :=
  fun i => layerAt A NE VB Ws Wn ⟨(i 0).val, (i 0).isLt⟩ ⟨(i 1).val, (i 1).isLt⟩

theorem layer_ix2 (A : (⟨2, ![500000, 81]⟩ : Shape).Idx → EReal) (NE : (⟨3, ![500000, 2, 81]⟩ : Shape).Idx → EReal)
    (VB : (⟨2, ![500000, 2]⟩ : Shape).Idx → BitVec 1) (Ws Wn : (⟨2, ![81, 128]⟩ : Shape).Idx → EReal)
    (n : Fin 500000) (c : Fin 128) : layer A NE VB Ws Wn (ix2 n c) = layerAt A NE VB Ws Wn n c := rfl

end Cert.RuleConv

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.LibMid3.lean ====
/-
  General lemmas: the layouts that bring a vector `[b]` and a matrix `[a, c]` to a rank-3 array `[a, b, c]` whose MIDDLE
  axis is the vector's, each read at an index given by coordinates.

  An expression `x[:, None, :] * w[None, :, None]` of `x : [a, c]` and `w : [b]` meets at `[a, b, c]`: the matrix goes
  `[a, c] → [a, 1, c] → [a, b, c]` (a kept middle axis, then a broadcast along it), the vector
  `[b] → [1, b, 1] → [a, b, c]`. Read at `(p, q, k)` these are the matrix at `(p, k)` and the vector at `q`. With them the
  two casts that undo a kept axis: `[a, 1, c] → [a, c]` and `[b, 1] → [b]`.
-/
import Idealize.ShloMosaic.Lib.ValueIdx
import Idealize.ShloMosaic.Lib.ValueLayout
import Idealize.ShloMosaic.Lib.Pipeline.Value

noncomputable section

namespace Cert.LibMid3

open Idealize.ShloMosaic Idealize.ShloMosaic.ValueIdx

variable {α : Type}

/-- A `[b]` vector cast to `[1, b, 1]` reads, at `(u, q, u')`, the vector at `q`. -/
theorem shapeCast_b_1b1_apply {b : ℕ} (x : (⟨1, ![b]⟩ : Shape).Idx → α) (h : (⟨1, ![b]⟩ : Shape).ShapeCasts ⟨3, ![1, b, 1]⟩)
    (u : Fin 1) (q : Fin b) (u' : Fin 1) : shapeCast ⟨3, ![1, b, 1]⟩ x h (ix3 u q u') = x (ix1 q) :=
  shapeCast_apply x h _ _ (by
    have hu : u.val = 0 := by omega
    have hu' : u'.val = 0 := by omega
    rw [Shape.rowMajor_val_three, Shape.rowMajor_val_one]
    show q.val = (u.val * b + q.val) * 1 + u'.val
    rw [hu, hu', Nat.zero_mul, Nat.zero_add, Nat.mul_one, Nat.add_zero])

/-- A `[1, b, 1]` array broadcast to `[a, b, c]` reads, at `(p, q, k)`, its one line at `q`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (q : Fin b) (k : Fin c) :
    broadcastTo ⟨3, ![a, b, c]⟩ v h (ix3 p q k) = v (ix3 (0 : Fin 1) q (0 : Fin 1)) := by
  refine broadcastTo_apply v h (ix3 p q k) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-- An `[a, c]` matrix cast to `[a, 1, c]` (a kept middle axis) reads, at `(p, u, k)`, the matrix at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- An `[a, 1, c]` array cast to `[a, c]` (the unit middle axis dropped) reads, at `(p, k)`, the array at `(p, 0, k)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (k : Fin c) :
    shapeCast ⟨2, ![a, c]⟩ x h (ix2 p k) = x (ix3 p (0 : Fin 1) k) :=
  shapeCast_apply x h _ _ (by
    rw [Shape.rowMajor_val_three, Shape.rowMajor_val_two]
    show (p.val * 1 + 0) * c + k.val = p.val * c + k.val
    rw [Nat.mul_one, Nat.add_zero])

/-- An `[a, 1, c]` array broadcast to `[a, b, c]` reads, at `(p, q, k)`, the array at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- A `[b, 1]` column cast to a `[b]` vector reads, at `q`, the column at `(q, 0)`. -/
theorem shapeCast_b1_b_apply {b : ℕ} (x : (⟨2, ![b, 1]⟩ : Shape).Idx → α) (h : (⟨2, ![b, 1]⟩ : Shape).ShapeCasts ⟨1, ![b]⟩)
    (q : Fin b) : shapeCast ⟨1, ![b]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- The vector's whole road: `[b] → [1, b, 1] → [a, b, c]` reads, at `(p, q, k)`, the vector at `q`. -/
theorem broadcastTo_shapeCast_b_abc_apply {a b c : ℕ} (x : (⟨1, ![b]⟩ : Shape).Idx → α)
    (h₁ : (⟨1, ![b]⟩ : Shape).ShapeCasts ⟨3, ![1, b, 1]⟩) (h₂ : (⟨3, ![1, b, 1]⟩ : Shape).Broadcasts ⟨3, ![a, b, c]⟩)
    (p : Fin a) (q : Fin b) (k : Fin c) :
    broadcastTo ⟨3, ![a, b, c]⟩ (shapeCast ⟨3, ![1, b, 1]⟩ x h₁) h₂ (ix3 p q k) = x (ix1 q) :=
  (broadcastTo_1b1_abc_apply _ h₂ p q k).trans (shapeCast_b_1b1_apply x h₁ 0 q 0)

/-- The matrix's whole road: `[a, c] → [a, 1, c] → [a, b, c]` reads, at `(p, q, k)`, the matrix at `(p, k)`. -/
theorem broadcastTo_shapeCast_ac_abc_apply {a b c : ℕ} (x : (⟨2, ![a, c]⟩ : Shape).Idx → α)
    (h₁ : (⟨2, ![a, c]⟩ : Shape).ShapeCasts ⟨3, ![a, 1, c]⟩) (h₂ : (⟨3, ![a, 1, c]⟩ : Shape).Broadcasts ⟨3, ![a, b, c]⟩)
    (p : Fin a) (q : Fin b) (k : Fin c) :
    broadcastTo ⟨3, ![a, b, c]⟩ (shapeCast ⟨3, ![a, 1, c]⟩ x h₁) h₂ (ix3 p q k) = x (ix2 p k) :=
  (broadcastTo_a1c_abc_apply _ h₂ p q k).trans (shapeCast_ac_a1c_apply x h₁ p 0 k)

end Cert.LibMid3

end
-- ==== Proof.LibKeepdims3.lean ====
/-
  General lemmas: a rank-3 array `[a, b, c]` reduced along its last axis with the axis kept, and the layouts that
  bring rank-2 and rank-1 operands to it, each read at an index given by coordinates.

  `jnp.mean(x, axis=-1, keepdims=True)` of `x : [a, b, c]` is a reduction `[a, b, c] → [a, b]`, the kept axis put back
  `[a, b] → [a, b, 1]`, and, where the result meets `x` again, a broadcast `[a, b, 1] → [a, b, c]`; a matrix `[b, c]`
  meets `x` through `[b, c] → [1, b, c] → [a, b, c]`, a vector `[c]` through `[c] → [1, 1, c] → [a, b, c]` (in a kernel from a
  `[1, c]` block). Read at `(p, q, k)` these are the sum over `(p, q, ·)`, the matrix at `(q, k)`, the vector at `k`.
  First the kernel's spellings (`shapeCast`, `broadcastTo`, the lane `multiReduction`), then a host program's
  (`broadcastInDim` with its `dims` a variable, of which only the images of the operand's axes are asked; `Host.reduceAdd`).
-/
import Idealize.ShloMosaic.Lib.ValueLayout
import Idealize.ShloMosaic.PureOps.Ideal.Laws

noncomputable section

open scoped BigOperators

namespace Cert.Lib.Keepdims3

open Idealize.ShloMosaic Idealize.ShloMosaic.ValueIdx

section Layout
variable {α : Type}

/-! ## A kernel's layouts -/

/-- A `[1, b, c]` array broadcast to `[a, b, c]` reads, at `(p, q, k)`, its one slab at `(q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- An `[a, b]` array cast to `[a, b, 1]` (a kept last axis) reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast to `[a, b, c]` reads, at `(p, q, k)`, its one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## A host program's layouts -/

/-- A matrix `[b, c]` broadcast to `[1, b, c]` (its axes sent to the last two) reads, at `(u, q, k)`, the matrix at `(q, k)`. -/
theorem broadcastInDim_bc_1bc_apply {b c : ℕ} (dims : Fin 2 → Fin 3)
    (h : (⟨2, ![b, c]⟩ : Shape).BroadcastsInDim ⟨3, ![1, b, c]⟩ dims) (hd0 : dims 0 = 1) (hd1 : dims 1 = 2)
    (v : (⟨2, ![b, c]⟩ : Shape).Idx → α) (u : Fin 1) (q : Fin b) (k : Fin c) :
    broadcastInDim ⟨3, ![1, b, c]⟩ dims h v (ix3 u q k) = v (ix2 q k) := by
  refine broadcastInDim_apply dims h v (ix3 u q k) (ix2 q k) fun ax => ?_
  match ax with
  | ⟨0, _⟩ =>
    show q.val = if b = 1 then 0 else (ix3 u q k (dims 0)).val
    rw [hd0]
    show q.val = if b = 1 then 0 else q.val
    split
    · have := q.isLt; omega
    · rfl
  | ⟨1, _⟩ =>
    show k.val = if c = 1 then 0 else (ix3 u q k (dims 1)).val
    rw [hd1]
    show k.val = if c = 1 then 0 else k.val
    split
    · have := k.isLt; omega
    · rfl

/-- A `[1, b, c]` array broadcast to `[a, b, c]`, axis to axis, reads, at `(p, q, k)`, its one slab at `(q, k)`. -/
theorem broadcastInDim_1bc_abc_apply {a b c : ℕ} (dims : Fin 3 → Fin 3)
    (h : (⟨3, ![1, b, c]⟩ : Shape).BroadcastsInDim ⟨3, ![a, b, c]⟩ dims) (hd1 : dims 1 = 1) (hd2 : dims 2 = 2)
    (v : (⟨3, ![1, b, c]⟩ : Shape).Idx → α) (p : Fin a) (q : Fin b) (k : Fin c) :
    broadcastInDim ⟨3, ![a, b, c]⟩ dims h v (ix3 p q k) = v (ix3 (0 : Fin 1) q k) := by
  refine broadcastInDim_apply dims h v (ix3 p q k) (ix3 (0 : Fin 1) q k) fun ax => ?_
  match ax with
  | ⟨0, _⟩ => rfl
  | ⟨1, _⟩ =>
    show q.val = if b = 1 then 0 else (ix3 p q k (dims 1)).val
    rw [hd1]
    show q.val = if b = 1 then 0 else q.val
    split
    · have := q.isLt; omega
    · rfl
  | ⟨2, _⟩ =>
    show k.val = if c = 1 then 0 else (ix3 p q k (dims 2)).val
    rw [hd2]
    show k.val = if c = 1 then 0 else k.val
    split
    · have := k.isLt; omega
    · rfl

/-- An `[a, b]` array broadcast to `[a, b, 1]` (a kept last axis) reads, at `(p, q, u)`, the operand at `(p, q)`. -/
theorem broadcastInDim_ab_ab1_apply {a b : ℕ} (dims : Fin 2 → Fin 3)
    (h : (⟨2, ![a, b]⟩ : Shape).BroadcastsInDim ⟨3, ![a, b, 1]⟩ dims) (hd0 : dims 0 = 0) (hd1 : dims 1 = 1)
    (v : (⟨2, ![a, b]⟩ : Shape).Idx → α) (p : Fin a) (q : Fin b) (u : Fin 1) :
    broadcastInDim ⟨3, ![a, b, 1]⟩ dims h v (ix3 p q u) = v (ix2 p q) := by
  refine broadcastInDim_apply dims h v (ix3 p q u) (ix2 p q) fun ax => ?_
  match ax with
  | ⟨0, _⟩ =>
    show p.val = if a = 1 then 0 else (ix3 p q u (dims 0)).val
    rw [hd0]
    show p.val = if a = 1 then 0 else p.val
    split
    · have := p.isLt; omega
    · rfl
  | ⟨1, _⟩ =>
    show q.val = if b = 1 then 0 else (ix3 p q u (dims 1)).val
    rw [hd1]
    show q.val = if b = 1 then 0 else q.val
    split
    · have := q.isLt; omega
    · rfl

/-- An `[a, b, 1]` array broadcast to `[a, b, c]`, axis to axis, reads, at `(p, q, k)`, the operand at `(p, q, 0)`. -/
theorem broadcastInDim_ab1_abc_apply {a b c : ℕ} (dims : Fin 3 → Fin 3)
    (h : (⟨3, ![a, b, 1]⟩ : Shape).BroadcastsInDim ⟨3, ![a, b, c]⟩ dims) (hd0 : dims 0 = 0) (hd1 : dims 1 = 1)
    (v : (⟨3, ![a, b, 1]⟩ : Shape).Idx → α) (p : Fin a) (q : Fin b) (k : Fin c) :
    broadcastInDim ⟨3, ![a, b, c]⟩ dims h v (ix3 p q k) = v (ix3 p q (0 : Fin 1)) := by
  refine broadcastInDim_apply dims h v (ix3 p q k) (ix3 p q (0 : Fin 1)) fun ax => ?_
  match ax with
  | ⟨0, _⟩ =>
    show p.val = if a = 1 then 0 else (ix3 p q k (dims 0)).val
    rw [hd0]
    show p.val = if a = 1 then 0 else p.val
    split
    · have := p.isLt; omega
    · rfl
  | ⟨1, _⟩ =>
    show q.val = if b = 1 then 0 else (ix3 p q k (dims 1)).val
    rw [hd1]
    show q.val = if b = 1 then 0 else q.val
    split
    · have := q.isLt; omega
    · rfl
  | ⟨2, _⟩ => rfl

/-- A vector `[c]` broadcast to `[1, 1, c]` (its axis sent to the last) reads, at `(u, u', k)`, the vector at `k`. -/
theorem broadcastInDim_c_11c_apply {c : ℕ} (dims : Fin 1 → Fin 3)
    (h : (⟨1, ![c]⟩ : Shape).BroadcastsInDim ⟨3, ![1, 1, c]⟩ dims) (hd0 : dims 0 = 2)
    (v : (⟨1, ![c]⟩ : Shape).Idx → α) (u u' : Fin 1) (k : Fin c) :
    broadcastInDim ⟨3, ![1, 1, c]⟩ dims h v (ix3 u u' k) = v (ix1 k) := by
  refine broadcastInDim_apply dims h v (ix3 u u' k) (ix1 k) fun ax => ?_
  match ax with
  | ⟨0, _⟩ =>
    show k.val = if c = 1 then 0 else (ix3 u u' k (dims 0)).val
    rw [hd0]
    show k.val = if c = 1 then 0 else k.val
    split
    · have := k.isLt; omega
    · rfl

/-- A `[1, 1, c]` array broadcast to `[a, b, c]`, axis to axis, reads, at `(p, q, k)`, its one row at `k`. -/
theorem broadcastInDim_11c_abc_apply {a b c : ℕ} (dims : Fin 3 → Fin 3)
    (h : (⟨3, ![1, 1, c]⟩ : Shape).BroadcastsInDim ⟨3, ![a, b, c]⟩ dims) (hd2 : dims 2 = 2)
    (v : (⟨3, ![1, 1, c]⟩ : Shape).Idx → α) (p : Fin a) (q : Fin b) (k : Fin c) :
    broadcastInDim ⟨3, ![a, b, c]⟩ dims h v (ix3 p q k) = v (ix3 (0 : Fin 1) (0 : Fin 1) k) := by
  refine broadcastInDim_apply dims h v (ix3 p q k) (ix3 (0 : Fin 1) (0 : Fin 1) k) fun ax => ?_
  match ax with
  | ⟨0, _⟩ => rfl
  | ⟨1, _⟩ => rfl
  | ⟨2, _⟩ =>
    show k.val = if c = 1 then 0 else (ix3 p q k (dims 2)).val
    rw [hd2]
    show k.val = if c = 1 then 0 else k.val
    split
    · have := k.isLt; omega
    · rfl

end Layout

/-! ## The two sums along the last axis, at the ideal values -/

/-- A kernel's lane reduction by addition of an `[a, b, c]` array along its last axis, read at `(p, q)`: the sum over
    `(p, q, ·)`. The accumulator's word is the neutral one, so it contributes nothing. -/
theorem multiReduction_add_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun ax => Fin.ext ?_)
  match ax with
  | ⟨0, _⟩ => rfl
  | ⟨1, _⟩ => rfl
  | ⟨2, _⟩ => rfl

/-- The host's sum of an `[a, b, c]` array along its last axis, read at `(p, q)`: the initial value plus the sum over
    `(p, q, ·)`. -/
theorem hostReduceAdd_last_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduceAdd x init h' hu (ix2 p q) = init (Shape.Idx.first hu) + ∑ k : Fin c, x (ix3 p q k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl
  | ⟨2, _⟩ => rfl

end Cert.Lib.Keepdims3

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibMidSum.lean ====
/-
  General lemma: a rank-3 array `[a, b, c]` summed along its MIDDLE axis by a kernel's `vector.multi_reduction <add>`
  (`jnp.sum(x, axis=1)` of `x : [a, b, c]`), read at an index given by coordinates.

  Read at `(p, r)` the reduction is the sum over `k : Fin b` of the array at `(p, k, r)`; the accumulator's word is the
  neutral one of addition, so it contributes nothing. Over the extended reals the sum has no order and no rounding.
-/
import Idealize.ShloMosaic.Lib.ValueIdx
import Idealize.ShloMosaic.PureOps.Ideal.Laws

noncomputable section

open scoped BigOperators

namespace Cert.LibMidSum

open Idealize.ShloMosaic Idealize.ShloMosaic.ValueIdx

/-- A kernel's reduction by addition of an `[a, b, c]` array along its middle axis, read at `(p, r)`: the sum over
    `(p, ·, r)`. -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ k : Fin b, src (ix3 p k r) := by
  refine (Ideal.multiReduction_add_single src acc h hφ hacc (ix2 p r)).trans ?_
  refine Finset.sum_congr rfl fun k _ => congrArg src (funext fun ax => Fin.ext ?_)
  match ax with
  | ⟨0, _⟩ => rfl
  | ⟨1, _⟩ => rfl
  | ⟨2, _⟩ => rfl

end Cert.LibMidSum

end
-- ==== Proof.KernelStages.lean ====
/-
  The kernel's body on one block of 2000 atoms, read at an output index.

  The body's stored value is cut into stages, each a function of the loaded blocks: the coordinate differences
  (`diffB`), their squared lengths (`sqB`), the inverse-square scale (`sclB`), the combined features (`cmbB`: the
  neighbour's coordinates joined with the feature sums along the feature axis), the scaled and masked messages (`msgB`),
  and the neighbours' contraction with the weights summed over the two neighbours (`nbB`: the 2000×2 message rows are
  folded into 4000 rows for one matrix product, unfolded again, and the neighbour axis summed). Each stage is read at an
  index by coordinates; put together, the stored value at (p, c) is the one-atom function `rowKer` of row p of the blocks.
-/
import proofs.«155209_j78271484002763_2_alg».proof.Proof.Gen.KernelIdeal.Skeleton
import proofs.«155209_j78271484002763_2_alg».proof.Proof.RowMath
import proofs.«155209_j78271484002763_2_alg».proof.Proof.LibPairTile
import proofs.«155209_j78271484002763_2_alg».proof.Proof.LibMid3
import proofs.«155209_j78271484002763_2_alg».proof.Proof.LibKeepdims3
import proofs.«155209_j78271484002763_2_alg».proof.Proof.LibMatmulNN
import proofs.«155209_j78271484002763_2_alg».proof.Proof.LibMidSum
import Idealize.ShloMosaic.Lib.Pipeline.Value
import Idealize.ShloMosaic.Lib.ValueIdx
import Idealize.ShloMosaic.PureOps.Ideal.Laws

noncomputable section

open scoped BigOperators

namespace Cert.RuleConv.Ker

open Idealize.ShloMosaic Idealize.ShloMosaic.ValueIdx Cert.KernelIdeal Cert.KernelIdeal.Gen Cert.RuleConv

/-! ## Slices of the blocks at an index -/

/-- The first three columns of the atoms' block. -/
theorem self3_apply (x0 : FVec Ideal S2000x81 .f32) (p : Fin 2000) (j : Fin 3) :
    extractStridedSlice S2000x3 ![0, 0] x0 slices_S2000x81_o0_0_S2000x3 (ix2 p j) = x0 (ix2 p (lo j)) :=
  extractStridedSlice_apply ![0, 0] x0 slices_S2000x81_o0_0_S2000x3 (ix2 p j) (ix2 p (lo j)) (fun a => match a with
    | ⟨0, _⟩ => by show p.val = 0 + p.val; omega
    | ⟨1, _⟩ => by show j.val = 0 + j.val; omega)

/-- The other 78 columns of the atoms' block. -/
theorem selfRest_apply (x0 : FVec Ideal S2000x81 .f32) (p : Fin 2000) (g : Fin 78) (f : Fin 81) (hf : f.val = g.val + 3) :
    extractStridedSlice S2000x78 ![0, 3] x0 slices_S2000x81_o0_3_S2000x78 (ix2 p g) = x0 (ix2 p f) :=
  extractStridedSlice_apply ![0, 3] x0 slices_S2000x81_o0_3_S2000x78 (ix2 p g) (ix2 p f) (fun a => match a with
    | ⟨0, _⟩ => by show p.val = 0 + p.val; omega
    | ⟨1, _⟩ => by show f.val = 3 + g.val; omega)

/-- The first three columns of the neighbours' block. -/
theorem neigh3_apply (x1 : FVec Ideal S2000x2x81 .f32) (p : Fin 2000) (k : Fin 2) (j : Fin 3) (f : Fin 81) (hf : f.val = j.val) :
    extractStridedSlice S2000x2x3 ![0, 0, 0] x1 slices_S2000x2x81_o0_0_0_S2000x2x3 (ix3 p k j) = x1 (ix3 p k f) :=
  extractStridedSlice_apply ![0, 0, 0] x1 slices_S2000x2x81_o0_0_0_S2000x2x3 (ix3 p k j) (ix3 p k f) (fun a => match a with
    | ⟨0, _⟩ => by show p.val = 0 + p.val; omega
    | ⟨1, _⟩ => by show k.val = 0 + k.val; omega
    | ⟨2, _⟩ => by show f.val = 0 + j.val; omega)

/-- The other 78 columns of the neighbours' block. -/
theorem neighRest_apply (x1 : FVec Ideal S2000x2x81 .f32) (p : Fin 2000) (k : Fin 2) (g : Fin 78) (f : Fin 81) (hf : f.val = g.val + 3) :
    extractStridedSlice S2000x2x78 ![0, 0, 3] x1 slices_S2000x2x81_o0_0_3_S2000x2x78 (ix3 p k g) = x1 (ix3 p k f) :=
  extractStridedSlice_apply ![0, 0, 3] x1 slices_S2000x2x81_o0_0_3_S2000x2x78 (ix3 p k g) (ix3 p k f) (fun a => match a with
    | ⟨0, _⟩ => by show p.val = 0 + p.val; omega
    | ⟨1, _⟩ => by show k.val = 0 + k.val; omega
    | ⟨2, _⟩ => by show f.val = 3 + g.val; omega)

/-! ## The stages -/

/-- Coordinate differences: the atom's coordinates repeated for both neighbours, less the neighbours' coordinates. -/
def diffB (x0 : FVec Ideal S2000x81 .f32) (x1 : FVec Ideal S2000x2x81 .f32) : FVec Ideal S2000x2x3 .f32 :=
  subf (broadcastTo S2000x2x3 (shapeCast S2000x1x3 (extractStridedSlice S2000x3 ![0, 0] x0 slices_S2000x81_o0_0_S2000x3)
      shapeCasts_S2000x3_S2000x1x3) broadcasts_S2000x1x3_S2000x2x3)
    (extractStridedSlice S2000x2x3 ![0, 0, 0] x1 slices_S2000x2x81_o0_0_0_S2000x2x3)

theorem diffB_apply (x0 : FVec Ideal S2000x81 .f32) (x1 : FVec Ideal S2000x2x81 .f32) (p : Fin 2000) (k : Fin 2) (j : Fin 3) :
    diffB x0 x1 (ix3 p k j) = x0 (ix2 p (lo j)) - x1 (ix3 p k (lo j)) := by
  show broadcastTo S2000x2x3 _ broadcasts_S2000x1x3_S2000x2x3 (ix3 p k j) - extractStridedSlice S2000x2x3 ![0, 0, 0] x1 _ (ix3 p k j) = _
  rw [Cert.LibMid3.broadcastTo_shapeCast_ac_abc_apply, self3_apply, neigh3_apply x1 p k j (lo j) rfl]

/-- Squared coordinate distances: the squares of the differences summed along the coordinate axis. -/
def sqB (x0 : FVec Ideal S2000x81 .f32) (x1 : FVec Ideal S2000x2x81 .f32) : FVec Ideal S2000x2 .f32 :=
  multiReduction .add [2] S2000x2 (mulf (diffB x0 x1) (diffB x0 x1)) 0x00000000#32 reduces_S2000x2x3_S2000x2 (.inl rfl) rfl

theorem sqB_apply (x0 : FVec Ideal S2000x81 .f32) (x1 : FVec Ideal S2000x2x81 .f32) (p : Fin 2000) (k : Fin 2) :
    sqB x0 x1 (ix2 p k) = sq3 (fun f => x0 (ix2 p f)) (fun f => x1 (ix3 p k f)) := by
  refine (Cert.Lib.Keepdims3.multiReduction_add_last_apply (mulf (diffB x0 x1) (diffB x0 x1)) 0x00000000#32
    reduces_S2000x2x3_S2000x2 (.inl rfl) rfl p k).trans ?_
  unfold sq3
  refine Finset.sum_congr rfl fun j _ => ?_
  show diffB x0 x1 (ix3 p k j) * diffB x0 x1 (ix3 p k j) = _
  rw [diffB_apply]

/-- The inverse-square scale of a block of squared distances, element by element. -/
def sclB (s : FVec Ideal S2000x2 .f32) : FVec Ideal S2000x2 .f32 :=
  select (cmpf .ogt (sqrt s) (broadcast S2000x2 (Scalar.ofBits .f32 0x00000000#32)))
    (divf (broadcast S2000x2 (Scalar.ofBits .f32 0x3F800000#32))
      (mulf (maximumf (sqrt s) (broadcast S2000x2 (Scalar.ofBits .f32 0x3A83126F#32)))
        (maximumf (sqrt s) (broadcast S2000x2 (Scalar.ofBits .f32 0x3A83126F#32)))))
    (broadcast S2000x2 (Scalar.ofBits .f32 0x3F800000#32))

theorem sclB_apply (s : FVec Ideal S2000x2 .f32) (i : S2000x2.Idx) : sclB s i = scaleOf (s i) := rfl

/-- Combined features: the neighbours' coordinates, then the atom's other features (repeated for both neighbours)
    plus the neighbours', joined along the feature axis. -/
def cmbB (x0 : FVec Ideal S2000x81 .f32) (x1 : FVec Ideal S2000x2x81 .f32) : FVec Ideal S2000x2x81 .f32 :=
  concatenate S2000x2x81 2
    [⟨S2000x2x3, extractStridedSlice S2000x2x3 ![0, 0, 0] x1 slices_S2000x2x81_o0_0_0_S2000x2x3⟩,
     ⟨S2000x2x78, addf (broadcastTo S2000x2x78 (shapeCast S2000x1x78 (extractStridedSlice S2000x78 ![0, 3] x0 slices_S2000x81_o0_3_S2000x78)
        shapeCasts_S2000x78_S2000x1x78) broadcasts_S2000x1x78_S2000x2x78)
        (extractStridedSlice S2000x2x78 ![0, 0, 3] x1 slices_S2000x2x81_o0_0_3_S2000x2x78)⟩]
    concatenates_S2000x2x3_S2000x2x78_S2000x2x81_d2

theorem cmbB_apply (x0 : FVec Ideal S2000x81 .f32) (x1 : FVec Ideal S2000x2x81 .f32) (p : Fin 2000) (k : Fin 2) (f : Fin 81) :
    cmbB x0 x1 (ix3 p k f) = comb (fun f => x0 (ix2 p f)) (fun f => x1 (ix3 p k f)) f := by
  unfold comb cmbB
  by_cases hf : f.val < 3
  · rw [if_pos hf]
    refine (concatenate_pair_apply_left (s₁ := S2000x2x3) (s₂ := S2000x2x78) (2 : Fin 3) _ _ concatenates_S2000x2x3_S2000x2x78_S2000x2x81_d2 (ix3 p k f) rfl
      (ix3 p k (⟨f.val, hf⟩ : Fin 3)) (fun b => match b with
        | ⟨0, _⟩ => rfl
        | ⟨1, _⟩ => rfl
        | ⟨2, _⟩ => rfl)).trans ?_
    exact neigh3_apply x1 p k ⟨f.val, hf⟩ f rfl
  · rw [if_neg hf]
    have hg : f.val - 3 < 78 := by have := f.isLt; omega
    refine (concatenate_pair_apply_right (s₁ := S2000x2x3) (s₂ := S2000x2x78) (2 : Fin 3) _ _ concatenates_S2000x2x3_S2000x2x78_S2000x2x81_d2 (ix3 p k f) rfl rfl
      (ix3 p k (⟨f.val - 3, hg⟩ : Fin 78)) (fun b => match b with
        | ⟨0, _⟩ => fun _ => rfl
        | ⟨1, _⟩ => fun _ => rfl
        | ⟨2, _⟩ => fun h => absurd rfl h) (by show f.val - 3 + 3 = f.val; omega)).trans ?_
    show broadcastTo S2000x2x78 _ broadcasts_S2000x1x78_S2000x2x78 (ix3 p k (⟨f.val - 3, hg⟩ : Fin 78))
      + extractStridedSlice S2000x2x78 ![0, 0, 3] x1 _ (ix3 p k (⟨f.val - 3, hg⟩ : Fin 78)) = _
    rw [Cert.LibMid3.broadcastTo_shapeCast_ac_abc_apply, selfRest_apply x0 p ⟨f.val - 3, hg⟩ f (by show f.val = f.val - 3 + 3; omega),
      neighRest_apply x1 p k ⟨f.val - 3, hg⟩ f (by show f.val = f.val - 3 + 3; omega)]

/-- Messages: the combined features times the scale of the pair (repeated along the features) times the pair's validity
    (repeated along the features). -/
def msgB (x0 : FVec Ideal S2000x81 .f32) (x1 : FVec Ideal S2000x2x81 .f32) (x2 : FVec Ideal S2000x2 .f32) : FVec Ideal S2000x2x81 .f32 :=
  mulf (mulf (cmbB x0 x1)
      (broadcastTo S2000x2x81 (shapeCast S2000x2x1 (sclB (sqB x0 x1)) shapeCasts_S2000x2_S2000x2x1) broadcasts_S2000x2x1_S2000x2x81))
    (broadcastTo S2000x2x81 (shapeCast S2000x2x1 x2 shapeCasts_S2000x2_S2000x2x1) broadcasts_S2000x2x1_S2000x2x81)

theorem msgB_apply (x0 : FVec Ideal S2000x81 .f32) (x1 : FVec Ideal S2000x2x81 .f32) (x2 : FVec Ideal S2000x2 .f32)
    (p : Fin 2000) (k : Fin 2) (f : Fin 81) :
    msgB x0 x1 x2 (ix3 p k f) = msg (fun f => x0 (ix2 p f)) (fun f => x1 (ix3 p k f)) f * x2 (ix2 p k) := by
  show cmbB x0 x1 (ix3 p k f)
      * broadcastTo S2000x2x81 (shapeCast S2000x2x1 (sclB (sqB x0 x1)) shapeCasts_S2000x2_S2000x2x1) broadcasts_S2000x2x1_S2000x2x81 (ix3 p k f)
      * broadcastTo S2000x2x81 (shapeCast S2000x2x1 x2 shapeCasts_S2000x2_S2000x2x1) broadcasts_S2000x2x1_S2000x2x81 (ix3 p k f) = _
  rw [cmbB_apply, Cert.PairTile.broadcastTo_ab1_abc_apply, Cert.PairTile.shapeCast_ab_ab1_apply,
    Cert.PairTile.broadcastTo_ab1_abc_apply, Cert.PairTile.shapeCast_ab_ab1_apply, sclB_apply, sqB_apply]
  rfl

/-- The neighbours' term: the 2000×2 message rows folded into 4000 rows, one matrix product with the weights into a zero
    accumulator, the rows unfolded, the neighbour axis summed. (The roundings to bf16 on the way in are identities here.) -/
def nbB (y : FVec Ideal S2000x2x81 .f32) (w : FVec Ideal S81x128 .f32) : FVec Ideal S2000x128 .f32 :=
  multiReduction .add [1] S2000x128
    (shapeCast S2000x2x128
      (matmul dot_S4000x81_S81x128_S4000x128_1_0_0_1_n_n none
        (truncf .bf16 (shapeCast S4000x81 y shapeCasts_S2000x2x81_S4000x81) bitsLt_bf16_f32)
        (truncf .bf16 w bitsLt_bf16_f32) (constant S4000x128 .f32 0x00000000#32))
      shapeCasts_S4000x128_S2000x2x128)
    0x00000000#32 reduces_S2000x2x128_S2000x128 (.inl rfl) rfl

theorem nbB_apply (y : FVec Ideal S2000x2x81 .f32) (w : FVec Ideal S81x128 .f32) (p : Fin 2000) (c : Fin 128) :
    nbB y w (ix2 p c) = ∑ k : Fin 2, ∑ f : Fin 81, y (ix3 p k f) * w (ix2 f c) := by
  refine (Cert.LibMidSum.multiReduction_add_mid_apply _ 0x00000000#32 reduces_S2000x2x128_S2000x128 (.inl rfl) rfl p c).trans ?_
  refine Finset.sum_congr rfl fun k _ => ?_
  have hr : p.val * 2 + k.val < 4000 := by have := p.isLt; have := k.isLt; omega
  rw [Cert.PairTile.shapeCast_nc_abc_apply _ shapeCasts_S4000x128_S2000x2x128 p k c (⟨p.val * 2 + k.val, hr⟩ : Fin 4000) rfl]
  refine (Cert.LibMatmulNN.matmul_nn_apply dot_S4000x81_S81x128_S4000x128_1_0_0_1_n_n rfl rfl rfl rfl rfl rfl none _ _
    (⟨p.val * 2 + k.val, hr⟩ : Fin 4000) c).trans ?_
  refine Finset.sum_congr rfl fun f _ => ?_
  show shapeCast S4000x81 y shapeCasts_S2000x2x81_S4000x81 (ix2 (⟨p.val * 2 + k.val, hr⟩ : Fin 4000) f) * w (ix2 f c) = _
  rw [Cert.PairTile.shapeCast_abc_nc_apply y shapeCasts_S2000x2x81_S4000x81 p k f (⟨p.val * 2 + k.val, hr⟩ : Fin 4000) rfl]

/-! ## The stored value -/

/-- The body's stored value is the atoms' own product with their weights plus the neighbours' term of the messages. -/
theorem pay_eq (x0 : FVec Ideal S2000x81 .f32) (x1 : FVec Ideal S2000x2x81 .f32) (x2 : FVec Ideal S2000x2 .f32)
    (x3 x4 : FVec Ideal S81x128 .f32) :
    k0_pay1 (F := Ideal) (k0_pay2 x0 x1 x2 x4) (k0_pay3 x0) x3
      = addf (matmul dot_S2000x81_S81x128_S2000x128_1_0_0_1_n_n none (truncf .bf16 x0 bitsLt_bf16_f32)
            (truncf .bf16 x3 bitsLt_bf16_f32) (constant S2000x128 .f32 0x00000000#32))
          (nbB (msgB x0 (shapeCast S2000x2x81 x1 shapeCasts_S2000x2x81_S2000x2x81) (shapeCast S2000x2 x2 shapeCasts_S2000x2_S2000x2)) x4) := rfl

/-- The stored value at row `p`, column `c`: the one-atom function of row `p` of the blocks, the validity block as numbers. -/
theorem pay_apply (x0 : FVec Ideal S2000x81 .f32) (x1 : FVec Ideal S2000x2x81 .f32) (x2 : FVec Ideal S2000x2 .f32)
    (x3 x4 : FVec Ideal S81x128 .f32) (p : Fin 2000) (c : Fin 128) :
    k0_pay1 (F := Ideal) (k0_pay2 x0 x1 x2 x4) (k0_pay3 x0) x3 (ix2 p c)
      = rowKer (fun f => x0 (ix2 p f)) (fun k f => x1 (ix3 p k f)) (fun k => x2 (ix2 p k)) (fun f => x3 (ix2 f c)) (fun f => x4 (ix2 f c)) := by
  rw [pay_eq, shapeCast_self, shapeCast_self]
  unfold rowKer
  show matmul dot_S2000x81_S81x128_S2000x128_1_0_0_1_n_n none (truncf .bf16 x0 bitsLt_bf16_f32)
      (truncf .bf16 x3 bitsLt_bf16_f32) (constant S2000x128 .f32 0x00000000#32) (ix2 p c) + nbB (msgB x0 x1 x2) x4 (ix2 p c) = _
  rw [nbB_apply]
  refine congrArg₂ (· + ·) ?_ (Finset.sum_congr rfl fun k _ => Finset.sum_congr rfl fun f _ => ?_)
  · exact Cert.LibMatmulNN.matmul_nn_apply dot_S2000x81_S81x128_S2000x128_1_0_0_1_n_n rfl rfl rfl rfl rfl rfl none _ _ p c
  · rw [msgB_apply]

/-- The stored value of blocks that are the rows `n p` of whole arrays — the validity block the validity bits as numbers —
    is the layer's output at those rows. -/
theorem block_eq (A : (⟨2, ![500000, 81]⟩ : Shape).Idx → EReal) (NE : (⟨3, ![500000, 2, 81]⟩ : Shape).Idx → EReal)
    (VB : (⟨2, ![500000, 2]⟩ : Shape).Idx → BitVec 1) (Ws Wn : (⟨2, ![81, 128]⟩ : Shape).Idx → EReal) (n : Fin 2000 → Fin 500000)
    (x0 : FVec Ideal S2000x81 .f32) (x1 : FVec Ideal S2000x2x81 .f32) (x2 : FVec Ideal S2000x2 .f32) (x3 x4 : FVec Ideal S81x128 .f32)
    (h0 : ∀ p f, x0 (ix2 p f) = A (ix2 (n p) f)) (h1 : ∀ p k f, x1 (ix3 p k f) = NE (ix3 (n p) k f))
    (h2 : ∀ p k, x2 (ix2 p k) = (((VB (ix2 (n p) k)).toNat : ℝ) : EReal))
    (h3 : ∀ f q, x3 (ix2 f q) = Ws (ix2 f q)) (h4 : ∀ f q, x4 (ix2 f q) = Wn (ix2 f q)) (p : Fin 2000) (q : Fin 128) :
    k0_pay1 (F := Ideal) (k0_pay2 x0 x1 x2 x4) (k0_pay3 x0) x3 (ix2 p q) = layer A NE VB Ws Wn (ix2 (n p) q) := by
  rw [pay_apply, layer_ix2]
  unfold layerAt
  rw [← rowKer_eq_rowRef]
  simp only [h0, h1, h2, h3, h4]

end Cert.RuleConv.Ker

end
-- ==== Proof.KernelValue.lean ====
/-
  From the kernel's blocks to its result array.

  The grid has 250 points; point `t` stages rows `2000 t … 2000 t + 1999` of the atoms' features, of the gathered
  neighbour rows and of the validity numbers, the two weight matrices whole, and writes back rows
  `2000 t … 2000 t + 1999` of the result. What point `t` writes back at row `p`, column `c` of its block is the
  one-atom function of atom `2000 t + p` (the stored value read at an index), so it is block `t` of the layer's output
  array; the 250 blocks tile the 500000 rows, so the result array IS the layer's output array.
  The arrays the region finds are the launch arguments and two arrays the host computed from them before the region:
  the gathered neighbour rows and the validity bits turned into the numbers 0 and 1.
-/
import proofs.«155209_j78271484002763_2_alg».proof.Proof.Gen.KernelIdeal.Value
import proofs.«155209_j78271484002763_2_alg».proof.Proof.Gen.ReferenceIdeal.Read
import proofs.«155209_j78271484002763_2_alg».proof.Proof.KernelStages
import Idealize.ShloMosaic.Lib.Pipeline.Value
import Idealize.ShloMosaic.Lib.StableHlo.Run
import Idealize.ShloMosaic.Lib.Tactic

set_option maxRecDepth 16384

noncomputable section

open scoped BigOperators

namespace Cert.RuleConv.Blocks

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Value Cert.RuleConv

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays the host computed before the region -/

/-- The gathered neighbour rows the region finds: the program's gather of the atoms' rows at the clipped indices. -/
theorem V_neigh (c : Dev nD) :
    (V m c main_v13 : S500000x2x81.Idx → EReal)
      = Cert.ReferenceIdeal.Read.val_main_v12 (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  rfl

/-- The validity numbers the region finds: the validity bits read as 0 and 1. -/
theorem V_valid (c : Dev nD) :
    (V m c main_v5 : S500000x2.Idx → EReal)
      = uitofp (F := Ideal) .f32 (Cert.ReferenceIdeal.Read.val_main_v4 (F := Ideal) (m ((c : Thread nD τ).loc main_arg1))) := by
  dsimp only [V]
  simp only [hostOps0, hostOps0_1, hostOps0_2, List.flatten_cons, List.flatten_nil, List.append_nil, List.cons_append, List.nil_append]
  after_results
  rfl

/-! ## The index maps over the grid -/

/-- The row-blocked windows sit at block `(t, 0, …)`, the weights' windows at block `(0, 0)`, at every grid point. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` as a row of the whole array. -/
def rowOf (t : Fin cfg0.N) (p : Fin 2000) : Fin 500000 :=
  ⟨t.val * 2000 + p.val, by have h := t.isLt; have hN : cfg0.N = 250 := N_0; have := p.isLt; omega⟩

/-! ## The input blocks as rows of the arrays -/

theorem iblk0_apply (c : Dev nD) (t : Fin cfg0.N) (p : Fin 2000) (f : Fin 81) :
    (iblk m c 0 t : Vec Ideal S2000x81 .f32) (ix2 p f) = (m ((c : Thread nD τ).loc main_arg0) : S500000x81.Idx → EReal) (ix2 (rowOf t p) f) := by
  obtain ⟨e0, e1, -⟩ := idx_facts t
  unfold iblk
  rw [View.read_apply]
  show V m c main_arg0 _ = _
  rw [V_main_arg0]
  refine congrArg (m ((c : Thread nD τ).loc main_arg0) : S500000x81.Idx → EReal) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 81 + 1 * f.val = f.val; rw [e1]; omega

theorem iblk1_apply (c : Dev nD) (t : Fin cfg0.N) (p : Fin 2000) (k : Fin 2) (f : Fin 81) :
    (iblk m c 1 t : Vec Ideal S2000x2x81 .f32) (ix3 p k f)
      = Cert.ReferenceIdeal.Read.val_main_v12 (F := Ideal) (m ((c : Thread nD τ).loc main_arg0)) (m ((c : Thread nD τ).loc main_arg1)) (ix3 (rowOf t p) k f) := by
  obtain ⟨-, -, e0, e1, e2, -⟩ := idx_facts t
  unfold iblk
  rw [View.read_apply]
  show (V m c main_v13 : S500000x2x81.Idx → EReal) _ = _
  rw [V_neigh]
  refine congrArg (Cert.ReferenceIdeal.Read.val_main_v12 (F := Ideal) (m ((c : Thread nD τ).loc main_arg0)) (m ((c : Thread nD τ).loc main_arg1))) (funext fun a => Fin.ext ?_)
  match a with
  | ⟨0, _⟩ => show win0_1.index t (0 : Fin 3) * 2000 + 1 * p.val = t.val * 2000 + p.val; rw [e0]; omega
  | ⟨1, _⟩ => show win0_1.index t (1 : Fin 3) * 2 + 1 * k.val = k.val; rw [e1]; omega
  | ⟨2, _⟩ => show win0_1.index t (2 : Fin 3) * 81 + 1 * f.val = f.val; rw [e2]; omega

theorem iblk2_apply (c : Dev nD) (t : Fin cfg0.N) (p : Fin 2000) (k : Fin 2) :
    (iblk m c 2 t : Vec Ideal S2000x2 .f32) (ix2 p k)
      = ((((Cert.ReferenceIdeal.Read.val_main_v4 (F := Ideal) (m ((c : Thread nD τ).loc main_arg1))) (ix2 (rowOf t p) k)).toNat : ℝ) : EReal) := by
  obtain ⟨-, -, -, -, -, e0, e1, -⟩ := idx_facts t
  unfold iblk
  rw [View.read_apply]
  show (V m c main_v5 : S500000x2.Idx → EReal) _ = _
  rw [V_valid]
  show (((Cert.ReferenceIdeal.Read.val_main_v4 (F := Ideal) (m ((c : Thread nD τ).loc main_arg1)) _).toNat : ℝ) : EReal) = _
  refine congrArg (fun i => ((((Cert.ReferenceIdeal.Read.val_main_v4 (F := Ideal) (m ((c : Thread nD τ).loc main_arg1))) i).toNat : ℝ) : EReal)) (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 2 + 1 * k.val = k.val; rw [e1]; omega

theorem iblk3_apply (c : Dev nD) (t : Fin cfg0.N) (f : Fin 81) (q : Fin 128) :
    (iblk m c 3 t : Vec Ideal S81x128 .f32) (ix2 f q) = (m ((c : Thread nD τ).loc main_arg2) : S81x128.Idx → EReal) (ix2 f q) := by
  obtain ⟨-, -, -, -, -, -, -, e0, e1, -⟩ := idx_facts t
  unfold iblk
  rw [View.read_apply]
  show V m c main_arg2 _ = _
  rw [V_main_arg2]
  refine congrArg (m ((c : Thread nD τ).loc main_arg2) : S81x128.Idx → EReal) (funext fun a => Fin.ext ?_)
  match a with
  | ⟨0, _⟩ => show win0_3.index t (0 : Fin 2) * 81 + 1 * f.val = f.val; rw [e0]; omega
  | ⟨1, _⟩ => show win0_3.index t (1 : Fin 2) * 128 + 1 * q.val = q.val; rw [e1]; omega

theorem iblk4_apply (c : Dev nD) (t : Fin cfg0.N) (f : Fin 81) (q : Fin 128) :
    (iblk m c 4 t : Vec Ideal S81x128 .f32) (ix2 f q) = (m ((c : Thread nD τ).loc main_arg3) : S81x128.Idx → EReal) (ix2 f q) := by
  obtain ⟨-, -, -, -, -, -, -, -, -, e0, e1, -⟩ := idx_facts t
  unfold iblk
  rw [View.read_apply]
  show V m c main_arg3 _ = _
  rw [V_main_arg3]
  refine congrArg (m ((c : Thread nD τ).loc main_arg3) : S81x128.Idx → EReal) (funext fun a => Fin.ext ?_)
  match a with
  | ⟨0, _⟩ => show win0_4.index t (0 : Fin 2) * 81 + 1 * f.val = f.val; rw [e0]; omega
  | ⟨1, _⟩ => show win0_4.index t (1 : Fin 2) * 128 + 1 * q.val = q.val; rw [e1]; omega

/-! ## What a point writes back -/

/-- The layer's output array of the launch arguments. -/
abbrev result (c : Dev nD) : S500000x128.Idx → EReal :=
  layer (m ((c : Thread nD τ).loc main_arg0))
    (Cert.ReferenceIdeal.Read.val_main_v12 (F := Ideal) (m ((c : Thread nD τ).loc main_arg0)) (m ((c : Thread nD τ).loc main_arg1)))
    (Cert.ReferenceIdeal.Read.val_main_v4 (F := Ideal) (m ((c : Thread nD τ).loc main_arg1)))
    (m ((c : Thread nD τ).loc main_arg2)) (m ((c : Thread nD τ).loc main_arg3))

/-- WHAT POINT `t` WRITES BACK is block `t` of the layer's output array. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz2]
  simp only [View.ld_unit_zero (S := S2000x81) hz2, View.ld_unit_zero (S := S2000x2x81) hz3, View.ld_unit_zero (S := S2000x2) hz2,
    View.ld_unit_zero (S := S81x128) hz2]
  obtain ⟨-, -, -, -, -, -, -, -, -, -, -, e0, e1⟩ := idx_facts t
  funext j
  obtain ⟨p, q, rfl⟩ : ∃ (p : Fin 2000) (q : Fin 128), j = ix2 p q := ⟨j 0, j 1, eq_ix2 j⟩
  show k0_pay1 (F := Ideal) (k0_pay2 (iblk m c 0 t) (iblk m c 1 t) (iblk m c 2 t) (iblk m c 4 t)) (k0_pay3 (iblk m c 0 t)) (iblk m c 3 t) (ix2 p q)
    = result m c (((cfg0.win 5).blk t).view.emb (ix2 p q))
  have he : ((cfg0.win 5).blk t).view.emb (ix2 p q) = ix2 (rowOf t p) q := funext fun a => Fin.ext (by
    match a with
    | ⟨0, _⟩ => show win0_5.index t (0 : Fin 2) * 2000 + 1 * p.val = t.val * 2000 + p.val; rw [e0]; omega
    | ⟨1, _⟩ => show win0_5.index t (1 : Fin 2) * 128 + 1 * q.val = q.val; rw [e1]; omega)
  rw [he]
  exact Ker.block_eq _ _ _ _ _ (rowOf t) _ _ _ _ _ (iblk0_apply m c t) (iblk1_apply m c t) (iblk2_apply m c t) (iblk3_apply m c t) (iblk4_apply m c t) p q

/-! ## The blocks tile the array -/

/-- An index of the array is in point `t`'s block iff each coordinate is in the block's range on its axis. -/
theorem mem_blk (t : Fin cfg0.N) (i : S500000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v14).slice (win0_5.rect t)).set ↔ _
  rw [View.set_slice_whole, Rect.mem_set_unit]
  exact Iff.rfl

/-- THE ARRAY after the run is the layer's output array: row `r` lies in the block of point `r / 2000`. -/
theorem final (c : Dev nD) : (dats m 0 c).arrAt 5 cfg0.N = result m c :=
  (dats m 0 c).arrAt_eq_of_cover 5 (result m c) (fun t _ => flushed_eq m c t) fun i => by
    have hi0 : (i 0).val < 500000 := (i 0).isLt
    have hi1 : (i 1).val < 128 := (i 1).isLt
    have hN : cfg0.N = 250 := N_0
    refine ⟨⟨(i 0).val / 2000, by rw [hN]; omega⟩, flush0_5 _, ?_⟩
    rw [mem_blk]
    obtain ⟨-, -, -, -, -, -, -, -, -, -, -, e0, e1⟩ := idx_facts ⟨(i 0).val / 2000, by rw [hN]; omega⟩
    intro a
    match a with
    | ⟨0, _⟩ =>
      show win0_5.index _ (0 : Fin 2) * 2000 ≤ (i 0).val ∧ (i 0).val < win0_5.index _ (0 : Fin 2) * 2000 + 2000
      rw [e0]; show (i 0).val / 2000 * 2000 ≤ (i 0).val ∧ (i 0).val < (i 0).val / 2000 * 2000 + 2000; omega
    | ⟨1, _⟩ =>
      show win0_5.index _ (1 : Fin 2) * 128 ≤ (i 1).val ∧ (i 1).val < win0_5.index _ (1 : Fin 2) * 128 + 128
      rw [e1]; omega

/-! ## The run, read -/

/-- The kernel's run with the result array at the layer's output array of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.RuleConv.Blocks

end
-- ==== Proof.RefRead.lean ====
/-
  The reference program read at an output index.

  The reference's stages, chained one operation at a time, give at atom `n`, neighbour `k`, feature `f`:
  the coordinate differences, their squared length, the inverse-square scale, the combined feature, the message; the
  contraction with the neighbour weights; the selection of the whole contribution by the validity bit; the sum over the
  two neighbours; and the atom's own product with its weights. The gathered neighbour rows and the validity bits are
  kept as the opaque arrays the program computes (`NE`, `VB`): nothing here depends on what they hold.
-/
import proofs.«155209_j78271484002763_2_alg».proof.Proof.Gen.ReferenceIdeal.Read
import proofs.«155209_j78271484002763_2_alg».proof.Proof.RowMath
import Idealize.ShloMosaic.Lib.Pipeline.Value
import Idealize.ShloMosaic.Lib.ValueIdx
import Idealize.ShloMosaic.PureOps.Ideal.Laws

noncomputable section

open scoped BigOperators

namespace Cert.RuleConv.Ref

open Idealize.ShloMosaic Idealize.ShloMosaic.ValueIdx Cert.ReferenceIdeal Cert.ReferenceIdeal.Gen Cert.ReferenceIdeal.Read Cert.RuleConv

variable (x0 : (⟨S500000x81, .f32⟩ : BufTy).Contents (Elt Ideal)) (x1 : (⟨S500000x2, .i32⟩ : BufTy).Contents (Elt Ideal))
  (x2 x3 : (⟨S81x128, .f32⟩ : BufTy).Contents (Elt Ideal))

/-- The gathered neighbour rows, as the program computes them. -/
abbrev NE : S500000x2x81.Idx → EReal := val_main_v12 (F := Ideal) x0 x1
/-- The validity bits, as the program computes them. -/
abbrev VB : S500000x2.Idx → BitVec 1 := val_main_v4 (F := Ideal) x1

/-- Coordinate differences. -/
theorem diff_apply (n : Fin 500000) (k : Fin 2) (j : Fin 3) :
    val_main_v17 (F := Ideal) x0 x1 (ix3 n k j) = x0 (ix2 n (lo j)) - NE x0 x1 (ix3 n k (lo j)) := by
  rw [val_main_v17_apply, val_main_v16_apply, val_main_v14_apply, val_main_v13_apply, val_main_v15_apply]
  have e1 : idx_main_v13 (idx_main_v14 (idx_main_v16 (ix3 n k j))) = ix2 n (lo j) := funext fun a => match a with
    | ⟨0, _⟩ => rfl
    | ⟨1, _⟩ => rfl
  have e2 : idx_main_v15 (ix3 n k j) = ix3 n k (lo j) := funext fun a => match a with
    | ⟨0, _⟩ => rfl
    | ⟨1, _⟩ => rfl
    | ⟨2, _⟩ => rfl
  rw [e1, e2]
  rfl

/-- Squared coordinate distances. -/
theorem sq_apply (n : Fin 500000) (k : Fin 2) :
    val_main_v19 (F := Ideal) x0 x1 (ix2 n k) = sq3 (fun f => x0 (ix2 n f)) (fun f => NE x0 x1 (ix3 n k f)) := by
  rw [val_main_v19_apply]
  show Ideal.ofBits .f32 0x00000000#32 + _ = _
  rw [Ideal.ofBits_zero_f32, zero_add]
  unfold sq3
  refine Finset.sum_congr rfl fun j _ => ?_
  have e : idx_main_v19 (ix2 n k) j = ix3 n k j := funext fun a => match a with
    | ⟨0, _⟩ => rfl
    | ⟨1, _⟩ => rfl
    | ⟨2, _⟩ => rfl
  rw [e, val_main_v18_apply, diff_apply]
  rfl

/-- The inverse-square scale. -/
theorem scale_apply (i : S500000x2.Idx) :
    val_main_v34 (F := Ideal) x0 x1 i = scaleOf (val_main_v19 (F := Ideal) x0 x1 i) := by
  rw [val_main_v34_apply, val_main_v28_apply, val_main_v33_apply, val_main_call1_v1_apply, val_main_call1_v0_apply,
    val_main_cst_8_apply, val_main_v32_apply, val_main_cst_7_apply, val_main_v31_apply, val_main_v30_apply, val_main_v29_apply,
    val_main_cst_6_apply, val_main_v27_apply, val_main_cst_5_apply, val_main_v20_apply]
  generalize val_main_v19 (F := Ideal) x0 x1 i = s
  rfl

/-- The combined feature. -/
theorem comb_apply (n : Fin 500000) (k : Fin 2) (f : Fin 81) :
    val_main_v26 (F := Ideal) x0 x1 (ix3 n k f) = comb (fun f => x0 (ix2 n f)) (fun f => NE x0 x1 (ix3 n k f)) f := by
  unfold comb val_main_v26
  by_cases hf : f.val < 3
  · rw [if_pos hf]
    refine (concatenate_pair_apply_left (s₁ := S500000x2x3) (s₂ := S500000x2x78) (2 : Fin 3) _ _ concatenates_S500000x2x3_S500000x2x78_S500000x2x81_d2 (ix3 n k f) rfl
      (ix3 n k (⟨f.val, hf⟩ : Fin 3)) (fun b => match b with
        | ⟨0, _⟩ => rfl
        | ⟨1, _⟩ => rfl
        | ⟨2, _⟩ => rfl)).trans ?_
    rw [val_main_v21_apply]
    exact congrArg (NE x0 x1) (funext fun a => match a with
      | ⟨0, _⟩ => rfl
      | ⟨1, _⟩ => rfl
      | ⟨2, _⟩ => rfl)
  · rw [if_neg hf]
    have hg : f.val - 3 < 78 := by have := f.isLt; omega
    refine (concatenate_pair_apply_right (s₁ := S500000x2x3) (s₂ := S500000x2x78) (2 : Fin 3) _ _ concatenates_S500000x2x3_S500000x2x78_S500000x2x81_d2 (ix3 n k f) rfl rfl
      (ix3 n k (⟨f.val - 3, hg⟩ : Fin 78)) (fun b => match b with
        | ⟨0, _⟩ => fun _ => rfl
        | ⟨1, _⟩ => fun _ => rfl
        | ⟨2, _⟩ => fun h => absurd rfl h) (by show f.val - 3 + 3 = f.val; omega)).trans ?_
    rw [val_main_v25_apply, val_main_v24_apply, val_main_v22_apply, val_main_v13_apply, val_main_v23_apply]
    have e1 : idx_main_v13 (idx_main_v22 (idx_main_v24 (ix3 n k (⟨f.val - 3, hg⟩ : Fin 78)))) = ix2 n f := funext fun a => match a with
      | ⟨0, _⟩ => rfl
      | ⟨1, _⟩ => Fin.ext (by show 3 + (f.val - 3) = f.val; omega)
    have e2 : idx_main_v23 (ix3 n k (⟨f.val - 3, hg⟩ : Fin 78)) = ix3 n k f := funext fun a => match a with
      | ⟨0, _⟩ => rfl
      | ⟨1, _⟩ => rfl
      | ⟨2, _⟩ => Fin.ext (by show 3 + (f.val - 3) = f.val; omega)
    rw [e1, e2]
    rfl

/-- The message. -/
theorem msg_apply (n : Fin 500000) (k : Fin 2) (f : Fin 81) :
    val_main_v37 (F := Ideal) x0 x1 (ix3 n k f) = msg (fun f => x0 (ix2 n f)) (fun f => NE x0 x1 (ix3 n k f)) f := by
  rw [val_main_v37_apply, comb_apply, val_main_v36_apply, val_main_v35_apply, scale_apply]
  have e : idx_main_v35 (idx_main_v36 (ix3 n k f)) = ix2 n k := funext fun a => match a with
    | ⟨0, _⟩ => rfl
    | ⟨1, _⟩ => rfl
  rw [e, sq_apply]
  rfl

/-- One neighbour's contribution: its messages contracted with the weights, or zero where the neighbour is invalid. -/
theorem contrib_apply (n : Fin 500000) (k : Fin 2) (c : Fin 128) :
    val_main_v40 (F := Ideal) x0 x1 x3 (ix3 n k c)
      = Scalar.select (VB x1 (ix2 n k)) (∑ f : Fin 81, msg (fun f => x0 (ix2 n f)) (fun f => NE x0 x1 (ix3 n k f)) f * x3 (ix2 f c)) 0 := by
  rw [val_main_v40_apply, val_main_call2_v1_apply, val_main_v39_apply, val_main_call2_v2_apply, val_main_v38_apply]
  have e : idx_main_v39 (idx_main_call2_v1 (ix3 n k c)) = ix2 n k := funext fun a => match a with
    | ⟨0, _⟩ => rfl
    | ⟨1, _⟩ => rfl
  rw [e]
  have z : val_main_call2_v0 (F := Ideal) (idx_main_call2_v2 (ix3 n k c)) = 0 := Ideal.ofBits_zero_f32
  rw [z]
  refine congrArg (fun s => Scalar.select (VB x1 (ix2 n k)) s 0) (Finset.sum_congr rfl fun f _ => ?_)
  have el : lidx_main_v38 (ix3 n k c) f = ix3 n k f := funext fun a => match a with
    | ⟨0, _⟩ => rfl
    | ⟨1, _⟩ => rfl
    | ⟨2, _⟩ => rfl
  have er : ridx_main_v38 (ix3 n k c) f = ix2 f c := funext fun a => match a with
    | ⟨0, _⟩ => rfl
    | ⟨1, _⟩ => rfl
  rw [el, er, msg_apply]

/-- The reference's result is the layer of the atoms' features, the gathered rows, the validity bits and the weights. -/
theorem result_eq :
    val_main_v43 (F := Ideal) x0 x1 x2 x3 = layer x0 (NE x0 x1) (VB x1) x2 x3 := by
  funext i
  obtain ⟨n, c, rfl⟩ : ∃ (n : Fin 500000) (c : Fin 128), i = ix2 n c := ⟨i 0, i 1, eq_ix2 i⟩
  rw [layer_ix2]
  unfold layerAt rowRef
  rw [val_main_v43_apply, val_main_v41_apply, val_main_v42_apply]
  show (∑ f : Fin 81, x0 (lidx_main_v41 (ix2 n c) f) * x2 (ridx_main_v41 (ix2 n c) f))
      + (Ideal.ofBits .f32 0x00000000#32 + ∑ k : Fin 2, val_main_v40 (F := Ideal) x0 x1 x3 (idx_main_v42 (ix2 n c) k)) = _
  rw [Ideal.ofBits_zero_f32, zero_add]
  refine congrArg₂ (· + ·) (Finset.sum_congr rfl fun f _ => ?_) (Finset.sum_congr rfl fun k _ => ?_)
  · have el : lidx_main_v41 (ix2 n c) f = ix2 n f := funext fun a => match a with
      | ⟨0, _⟩ => rfl
      | ⟨1, _⟩ => rfl
    have er : ridx_main_v41 (ix2 n c) f = ix2 f c := funext fun a => match a with
      | ⟨0, _⟩ => rfl
      | ⟨1, _⟩ => rfl
    rw [el, er]
  · have e : idx_main_v42 (ix2 n c) k = ix3 n k c := funext fun a => match a with
      | ⟨0, _⟩ => rfl
      | ⟨1, _⟩ => rfl
      | ⟨2, _⟩ => rfl
    rw [e, contrib_apply]

end Cert.RuleConv.Ref

end
-- ==== Proof.lean ====
/-
  The claims of the graph-convolution layer's certificate.

  At the ideal values both programs compute, for every atom `n` and output column `c`,
      Σ_f A(n, f) · W_s(f, c)  +  Σ_k [valid(n, k)] Σ_f msg(n, k, f) · W_n(f, c),
  where `msg` is the neighbour's combined feature (its own coordinates, the feature sums elsewhere) scaled by the inverse
  square of the clamped coordinate distance. The kernel masks by multiplying each message by the validity bit as a
  number before the contraction and works on blocks of 2000 atoms, the 2000×2 message rows folded into one matrix
  product; the reference selects the contracted contribution or zero. The two maskings agree on every extended real
  (`x · 1 = x`, `x · 0 = 0`, `0 · y = 0`), so the precondition is never opened. The neighbour gather and the validity
  test are the same host operations in both programs and are carried as opaque arrays.
  The three frames are the generated ones (the reference's is its generated run with the result dropped); the idealized
  kernel is the kernel's own text read at the ideal values, so `preserves` is `True`.
-/
import proofs.«155209_j78271484002763_2_alg».proof.Defs
import proofs.«155209_j78271484002763_2_alg».proof.Proof.Gen.Kernel
import proofs.«155209_j78271484002763_2_alg».proof.Proof.Gen.Kernel.Frame
import proofs.«155209_j78271484002763_2_alg».proof.Proof.Gen.KernelIdeal
import proofs.«155209_j78271484002763_2_alg».proof.Proof.Gen.KernelIdeal.Frame
import proofs.«155209_j78271484002763_2_alg».proof.Proof.Gen.KernelIdeal.Value
import proofs.«155209_j78271484002763_2_alg».proof.Proof.Gen.ReferenceIdeal
import proofs.«155209_j78271484002763_2_alg».proof.Proof.Gen.ReferenceIdeal.Run
import proofs.«155209_j78271484002763_2_alg».proof.Proof.Gen.ReferenceIdeal.Read
import proofs.«155209_j78271484002763_2_alg».proof.Proof.Gen.Pre_finite_inputs
import proofs.«155209_j78271484002763_2_alg».proof.Proof.KernelValue
import proofs.«155209_j78271484002763_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both runs end with the result array at the layer's output array of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.RuleConv.Blocks.result m c, Cert.RuleConv.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.RuleConv.Ref.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
